-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256x4x4 : Shape := ⟨4, ![8192, 256, 4, 4]⟩
abbrev S600x4096 : Shape := ⟨2, ![600, 4096]⟩
abbrev S_ : Shape := ⟨0, ![]⟩

class Facts : Prop where
  bcast_S_S8192x256x4x4 : S_.BroadcastsInDim S8192x256x4x4 (![] : Fin 0 → Fin S8192x256x4x4.rank)
  reducesTo_S8192x256x4x4_S_d0_1_2_3 : S8192x256x4x4.ReducesTo [0, 1, 2, 3] S_
  h_S_ : 0 < S_.numel
  bcast_S_S600x4096 : S_.BroadcastsInDim S600x4096 (![] : Fin 0 → Fin S600x4096.rank)
  reducesTo_S600x4096_S_d0_1 : S600x4096.ReducesTo [0, 1] S_

variable [Facts]

def fn {F : FTy → Type} [FloatOps F] (main_arg0 : FVec F S8192x256x4x4 .f32) (main_arg1 : FVec F S600x4096 .f32) : IVec S_ 1 :=
  let main_v0 : FVec F S8192x256x4x4 .f32 := Host.absf main_arg0
  let main_cst : FVec F S_ .f32 := constant S_ .f32 0x7F800000#32
  let main_v1 : FVec F S8192x256x4x4 .f32 := broadcastInDim S8192x256x4x4 ![] bcast_S_S8192x256x4x4 main_cst
  let main_v2 : IVec S8192x256x4x4 1 := cmpf .olt main_v0 main_v1
  let main_c : IVec S_ 1 := constantI S_ 1 1#1
  let main_v3 : IVec S_ 1 := (fun x v => Host.reduce IntOp.andi x v reducesTo_S8192x256x4x4_S_d0_1_2_3 h_S_) main_v2 main_c
  let main_v4 : FVec F S600x4096 .f32 := Host.absf main_arg1
  let main_cst_0 : FVec F S_ .f32 := constant S_ .f32 0x7F800000#32
  let main_v5 : FVec F S600x4096 .f32 := broadcastInDim S600x4096 ![] bcast_S_S600x4096 main_cst_0
  let main_v6 : IVec S600x4096 1 := cmpf .olt main_v4 main_v5
  let main_c_1 : IVec S_ 1 := constantI S_ 1 1#1
  let main_v7 : IVec S_ 1 := (fun x v => Host.reduce IntOp.andi x v reducesTo_S600x4096_S_d0_1 h_S_) main_v6 main_c_1
  let main_v8 : IVec S_ 1 := andi main_v3 main_v7
  main_v8
-- ==== Kernel.lean ====
abbrev S8192x256x4x4 : Shape := ⟨4, ![8192, 256, 4, 4]⟩
abbrev S600x4096 : Shape := ⟨2, ![600, 4096]⟩
abbrev S8192x4096 : Shape := ⟨2, ![8192, 4096]⟩
abbrev S_ : Shape := ⟨0, ![]⟩
abbrev S600 : Shape := ⟨1, ![600]⟩
abbrev S600x1 : Shape := ⟨2, ![600, 1]⟩
abbrev S4096x600 : Shape := ⟨2, ![4096, 600]⟩
abbrev S8192x600 : Shape := ⟨2, ![8192, 600]⟩
abbrev S256x4096 : Shape := ⟨2, ![256, 4096]⟩
abbrev S256x600 : Shape := ⟨2, ![256, 600]⟩
abbrev S256 : Shape := ⟨1, ![256]⟩
abbrev S256x1 : Shape := ⟨2, ![256, 1]⟩
abbrev S1x600 : Shape := ⟨2, ![1, 600]⟩

abbrev nBuf : Space → Nat
  | .hbm => 14
  | .vmem => 9
  | .smem => 0
  | _ => 0

abbrev bufTy : (tb : Table) → Fin (tcTables nBuf tb) → BufTy
  | .hbm, ⟨0, _⟩ => ⟨S8192x256x4x4, .f32⟩
  | .hbm, ⟨1, _⟩ => ⟨S600x4096, .f32⟩
  | .hbm, ⟨2, _⟩ => ⟨S8192x4096, .f32⟩
  | .hbm, ⟨3, _⟩ => ⟨S600x4096, .f32⟩
  | .hbm, ⟨4, _⟩ => ⟨S_, .f32⟩
  | .hbm, ⟨5, _⟩ => ⟨S600, .f32⟩
  | .hbm, ⟨6, _⟩ => ⟨S600x1, .f32⟩
  | .hbm, ⟨7, _⟩ => ⟨S600x1, .f32⟩
  | .hbm, ⟨8, _⟩ => ⟨S600x4096, .bf16⟩
  | .hbm, ⟨9, _⟩ => ⟨S4096x600, .f32⟩
  | .hbm, ⟨10, _⟩ => ⟨S4096x600, .bf16⟩
  | .hbm, ⟨11, _⟩ => ⟨S8192x4096, .f32⟩
  | .hbm, ⟨12, _⟩ => ⟨S8192x600, .f32⟩
  | .hbm, ⟨13, _⟩ => ⟨S8192x256x4x4, .f32⟩
  | .local _ .vmem, ⟨0, _⟩ => ⟨S256x4096, .f32⟩
  | .local _ .vmem, ⟨1, _⟩ => ⟨S256x4096, .f32⟩
  | .local _ .vmem, ⟨2, _⟩ => ⟨S4096x600, .bf16⟩
  | .local _ .vmem, ⟨3, _⟩ => ⟨S600x4096, .bf16⟩
  | .local _ .vmem, ⟨4, _⟩ => ⟨S600x1, .f32⟩
  | .local _ .vmem, ⟨5, _⟩ => ⟨S256x4096, .f32⟩
  | .local _ .vmem, ⟨6, _⟩ => ⟨S256x4096, .f32⟩
  | .local _ .vmem, ⟨7, _⟩ => ⟨S256x600, .f32⟩
  | .local _ .vmem, ⟨8, _⟩ => ⟨S256x600, .f32⟩
  | _, _ => ⟨S8192x256x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x600 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S600x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S600x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8192x256x4x4_S8192x4096 : S8192x256x4x4.ShapeCasts S8192x4096
  reducesTo_S600x4096_S600_d1 : S600x4096.ReducesTo [1] S600
  h_S_ : 0 < S_.numel
  bcast_S600_S600x1_0 : S600.BroadcastsInDim S600x1 (![0] : Fin 1 → Fin S600x1.rank)
  bitsLt_bf16_f32 : FTy.bits .bf16 < FTy.bits .f32
  transposes_S600x4096_S4096x600_1_0 : S600x4096.Transposes [1, 0] S4096x600
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  inb_S4096x600_S4096x600_0_0 : ∀ a, (![0, 0] : Fin 2 → Nat) a + S4096x600.size a ≤ S4096x600.size a
  h_S4096x600 : 0 < S4096x600.numel
  shapeCasts_S4096x600_S4096x600 : S4096x600.ShapeCasts S4096x600
  inb_S600x4096_S600x4096_0_0 : ∀ a, (![0, 0] : Fin 2 → Nat) a + S600x4096.size a ≤ S600x4096.size a
  h_S600x4096 : 0 < S600x4096.numel
  shapeCasts_S600x4096_S600x4096 : S600x4096.ShapeCasts S600x4096
  inb_S600x1_S600x1_0_0 : ∀ a, (![0, 0] : Fin 2 → Nat) a + S600x1.size a ≤ S600x1.size a
  h_S600x1 : 0 < S600x1.numel
  shapeCasts_S600x1_S600x1 : S600x1.ShapeCasts S600x1
  transposes_S600x1_p1_0_S1x600 : S600x1.Transposes [1, 0] S1x600
  broadcasts_S256x1_S256x600 : S256x1.Broadcasts S256x600
  broadcasts_S1x600_S256x600 : S1x600.Broadcasts S256x600
  reduces_S256x600_S256 : S256x600.Reduces [1] S256
  inb_S256x600_S256x600_0_0 : ∀ a, (![0, 0] : Fin 2 → Nat) a + S256x600.size a ≤ S256x600.size a
  h_S256x600 : 0 < S256x600.numel
  shapeCasts_S8192x4096_S8192x256x4x4 : S8192x4096.ShapeCasts S8192x256x4x4
  dot_S256x4096_S4096x600_S256x600_1_0_0_1_n_n_wf : DotDims.WF S256x4096 S4096x600 S256x600 [1] [0] [0] [1] [] []
  dot_S256x600_S600x4096_S256x4096_1_0_0_1_n_n_wf : DotDims.WF S256x600 S600x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x600.size a ≤ S4096x600.size a
  hwx0_1 : ∀ i : grid0.Coords, EltTy.bits .bf16 = 32 ∨ (Rect.block (s := S4096x600) S4096x600.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S600x4096.size a ≤ S600x4096.size a
  hwx0_2 : ∀ i : grid0.Coords, EltTy.bits .bf16 = 32 ∨ (Rect.block (s := S600x4096) S600x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S600x1.size a ≤ S600x1.size a
  hwx0_3 : ∀ i : grid0.Coords, EltTy.bits .f32 = 32 ∨ (Rect.block (s := S600x1) S600x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x600.size a ≤ S8192x600.size a
  hwx0_5 : ∀ i : grid0.Coords, EltTy.bits .f32 = 32 ∨ (Rect.block (s := S8192x600) S256x600.size (cc0_transform_5 i) (hinb0_5 i)).WholeWords (EltTy.packing .f32)

variable [Facts₀]

def dot_S256x4096_S4096x600_S256x600_1_0_0_1_n_n : DotDims S256x4096 S4096x600 S256x600 where
  lhsContracting := [1]
  rhsContracting := [0]
  lhsNonContracting := [0]
  rhsNonContracting := [1]
  lhsBatch := []
  rhsBatch := []
  wf := dot_S256x4096_S4096x600_S256x600_1_0_0_1_n_n_wf
def dot_S256x600_S600x4096_S256x4096_1_0_0_1_n_n : DotDims S256x600 S600x4096 S256x4096 where
  lhsContracting := [1]
  rhsContracting := [0]
  lhsNonContracting := [0]
  rhsNonContracting := [1]
  lhsBatch := []
  rhsBatch := []
  wf := dot_S256x600_S600x4096_S256x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x600.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S600x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S600x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S256x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S256x600.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x256x4x4 : Shape := ⟨4, ![8192, 256, 4, 4]⟩
abbrev S600x4096 : Shape := ⟨2, ![600, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S600 : Shape := ⟨1, ![600]⟩
abbrev S600x1 : Shape := ⟨2, ![600, 1]⟩
abbrev S1x600 : Shape := ⟨2, ![1, 600]⟩
abbrev S8192x600 : Shape := ⟨2, ![8192, 600]⟩
abbrev S4096x600 : Shape := ⟨2, ![4096, 600]⟩

abbrev nBuf : Space → Nat
  | .hbm => 60
  | .vmem => 0
  | .smem => 0
  | _ => 0

abbrev bufTy : (tb : Table) → Fin (tcTables nBuf tb) → BufTy
  | .hbm, ⟨0, _⟩ => ⟨S8192x256x4x4, .f32⟩
  | .hbm, ⟨1, _⟩ => ⟨S600x4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S600x4096, .f32⟩
  | .hbm, ⟨9, _⟩ => ⟨S_, .f32⟩
  | .hbm, ⟨10, _⟩ => ⟨S600, .f32⟩
  | .hbm, ⟨11, _⟩ => ⟨S600x1, .f32⟩
  | .hbm, ⟨12, _⟩ => ⟨S600x1, .f32⟩
  | .hbm, ⟨13, _⟩ => ⟨S1x600, .f32⟩
  | .hbm, ⟨14, _⟩ => ⟨S8192x600, .f32⟩
  | .hbm, ⟨15, _⟩ => ⟨S8192x600, .f32⟩
  | .hbm, ⟨16, _⟩ => ⟨S8192x600, .f32⟩
  | .hbm, ⟨17, _⟩ => ⟨S_, .f32⟩
  | .hbm, ⟨18, _⟩ => ⟨S8192x600, .f32⟩
  | .hbm, ⟨19, _⟩ => ⟨S8192x600, .f32⟩
  | .hbm, ⟨20, _⟩ => ⟨S4096x600, .f32⟩
  | .hbm, ⟨21, _⟩ => ⟨S8192x600, .f32⟩
  | .hbm, ⟨22, _⟩ => ⟨S8192x600, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x1, .f32⟩
  | .hbm, ⟨29, _⟩ => ⟨S8192x600, .f32⟩
  | .hbm, ⟨30, _⟩ => ⟨S8192x600, .f32⟩
  | .hbm, ⟨31, _⟩ => ⟨S8192x600, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x600, .f32⟩
  | .hbm, ⟨36, _⟩ => ⟨S8192x600, .f32⟩
  | .hbm, ⟨37, _⟩ => ⟨S_, .f32⟩
  | .hbm, ⟨38, _⟩ => ⟨S8192x600, .f32⟩
  | .hbm, ⟨39, _⟩ => ⟨S8192x600, .f32⟩
  | .hbm, ⟨40, _⟩ => ⟨S_, .f32⟩
  | .hbm, ⟨41, _⟩ => ⟨S8192x600, .f32⟩
  | .hbm, ⟨42, _⟩ => ⟨S8192x600, .f32⟩
  | .hbm, ⟨43, _⟩ => ⟨S8192x600, .f32⟩
  | .hbm, ⟨44, _⟩ => ⟨S8192x600, .f32⟩
  | .hbm, ⟨45, _⟩ => ⟨S_, .f32⟩
  | .hbm, ⟨46, _⟩ => ⟨S8192x600, .f32⟩
  | .hbm, ⟨47, _⟩ => ⟨S8192x600, .f32⟩
  | .hbm, ⟨48, _⟩ => ⟨S8192x600, .f32⟩
  | .hbm, ⟨49, _⟩ => ⟨S8192x600, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x600, .f32⟩
  | .hbm, ⟨57, _⟩ => ⟨S8192x600, .f32⟩
  | .hbm, ⟨58, _⟩ => ⟨S8192x4096, .f32⟩
  | .hbm, ⟨59, _⟩ => ⟨S8192x256x4x4, .f32⟩
  | _, _ => ⟨S8192x256x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_call1_v0 : Ref sig .tc := ⟨.hbm, 8, rfl⟩
abbrev main_call1_cst : Ref sig .tc := ⟨.hbm, 9, rfl⟩
abbrev main_call1_v1 : Ref sig .tc := ⟨.hbm, 10, rfl⟩
abbrev main_call1_v2 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_call2_cst : Ref sig .tc := ⟨.hbm, 40, rfl⟩
abbrev main_call2_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]

class Facts₀ : Prop where
  shapeCasts_S8192x256x4x4_S8192x4096 : S8192x256x4x4.ShapeCasts S8192x4096
  reducesTo_S8192x4096_S8192_d1 : S8192x4096.ReducesTo [1] S8192
  h_S_ : 0 < S_.numel
  bcast_S8192_S8192x1_0 : S8192.BroadcastsInDim S8192x1 (![0] : Fin 1 → Fin S8192x1.rank)
  reducesTo_S600x4096_S600_d1 : S600x4096.ReducesTo [1] S600
  bcast_S600_S600x1_0 : S600.BroadcastsInDim S600x1 (![0] : Fin 1 → Fin S600x1.rank)
  transposes_S600x1_S1x600_1_0 : S600x1.Transposes [1, 0] S1x600
  bcast_S8192x1_S8192x600_0_1 : S8192x1.BroadcastsInDim S8192x600 (![0, 1] : Fin 2 → Fin S8192x600.rank)
  bcast_S1x600_S8192x600_0_1 : S1x600.BroadcastsInDim S8192x600 (![0, 1] : Fin 2 → Fin S8192x600.rank)
  bcast_S_S8192x600 : S_.BroadcastsInDim S8192x600 (![] : Fin 0 → Fin S8192x600.rank)
  transposes_S600x4096_S4096x600_1_0 : S600x4096.Transposes [1, 0] S4096x600
  reducesTo_S8192x600_S8192_d1 : S8192x600.ReducesTo [1] S8192
  bcast_S_S8192 : S_.BroadcastsInDim S8192 (![] : Fin 0 → Fin S8192.rank)
  bcast_S_S8192x1 : S_.BroadcastsInDim S8192x1 (![] : Fin 0 → Fin S8192x1.rank)
  shapeCasts_S8192x4096_S8192x256x4x4 : S8192x4096.ShapeCasts S8192x256x4x4
  dot_S8192x4096_S4096x600_S8192x600_1_0_0_1_n_n_wf : DotDims.WF S8192x4096 S4096x600 S8192x600 [1] [0] [0] [1] [] []
  dot_S8192x600_S600x4096_S8192x4096_1_0_0_1_n_n_wf : DotDims.WF S8192x600 S600x4096 S8192x4096 [1] [0] [0] [1] [] []

variable [Facts₀]

def dot_S8192x4096_S4096x600_S8192x600_1_0_0_1_n_n : DotDims S8192x4096 S4096x600 S8192x600 where
  lhsContracting := [1]
  rhsContracting := [0]
  lhsNonContracting := [0]
  rhsNonContracting := [1]
  lhsBatch := []
  rhsBatch := []
  wf := dot_S8192x4096_S4096x600_S8192x600_1_0_0_1_n_n_wf
def dot_S8192x600_S600x4096_S8192x4096_1_0_0_1_n_n : DotDims S8192x600 S600x4096 S8192x4096 where
  lhsContracting := [1]
  rhsContracting := [0]
  lhsNonContracting := [0]
  rhsNonContracting := [1]
  lhsBatch := []
  rhsBatch := []
  wf := dot_S8192x600_S600x4096_S8192x4096_1_0_0_1_n_n_wf

class Facts : Prop extends Facts₀ where

variable [Facts]
-- ==== Proof.Addressing.lean ====
/-
  Cosine-similarity memory addressing with hard shrinkage, one query row at a time, over the extended reals.

  A query row `q` of length `D` is compared with `M` memory slots.  Slot `j` is presented three ways: its
  entries `mt k j` for the inner product, its Euclidean norm `mn j`, and (for the final read) its entries again.
  The cosine of `q` with slot `j` is the inner product over the product of the norms, the latter kept away from
  zero by a floor.  The cosines are turned into a softmax row (shifted by the row's maximum), every entry `p` is
  shrunk to `relu (p - 1/M) · p / (|p - 1/M| + ε)`, and the shrunk row is divided by its `ℓ¹` norm, floored by `ε`.
  The float literals are carried as the words both programs print; none of them is ever evaluated.
-/
import Idealize.ShloMosaic.PureOps.Ideal
import Idealize.ShloMosaic.Lib.ValueIdx

noncomputable section

namespace Cert.Addressing

open Idealize.ShloMosaic Idealize.ShloMosaic.ValueIdx

/-- The floor under the product of the two norms. -/
abbrev cosFloor : EReal := Ideal.ofBits .f32 0x322BCC77#32
/-- The value a row maximum is folded from. -/
abbrev bottom : EReal := Ideal.ofBits .f32 0xFF800000#32
/-- The shrinkage threshold, the float nearest `1/600`. -/
abbrev threshold : EReal := Ideal.ofBits .f32 0x3ADA740E#32
/-- The guard `ε` of the shrinkage quotient and of the `ℓ¹` normalisation. -/
abbrev guard : EReal := Ideal.ofBits .f32 0x2B8CBCCC#32
/-- The zero the rectifier compares with. -/
abbrev nought : EReal := Ideal.ofBits .f32 0x00000000#32

variable {D M : ℕ}

/-- The cosine of the query with slot `j`: inner product over the floored product of the norms. -/
def cosine (q : Fin D → EReal) (mt : Fin D → Fin M → EReal) (mn : Fin M → EReal) (j : Fin M) : EReal :=
  Ideal.div (∑ k, q k * mt k j) (max (Ideal.sqrt (∑ k, q k * q k) * mn j) cosFloor)

/-- The maximum of a row, folded from `bottom` (and compared with it once more, as both programs do). -/
def peak (l : Fin M → EReal) : EReal := max bottom (Finset.univ.fold max bottom l)

/-- The softmax of a row, shifted by its maximum. -/
def softmax (l : Fin M → EReal) (j : Fin M) : EReal :=
  Ideal.div (Ideal.exp (l j - peak l)) (∑ i, Ideal.exp (l i - peak l))

/-- Hard shrinkage of one softmax entry: `relu (p - t) · p / (|p - t| + ε)`, with `|x| = max x (-x)`. -/
def shrink (p : EReal) : EReal :=
  Ideal.div (max (p - threshold) nought * p) (max (p - threshold) (-(p - threshold)) + guard)

/-- The shrunk softmax row of a query, before its normalisation. -/
def raw (q : Fin D → EReal) (mt : Fin D → Fin M → EReal) (mn : Fin M → EReal) (j : Fin M) : EReal :=
  shrink (softmax (cosine q mt mn) j)

/-- The addressing weights of a query: the shrunk row over its floored `ℓ¹` norm. -/
def weight (q : Fin D → EReal) (mt : Fin D → Fin M → EReal) (mn : Fin M → EReal) (j : Fin M) : EReal :=
  Ideal.div (raw q mt mn j) (max (∑ i, max (raw q mt mn i) (-(raw q mt mn i))) guard)

/-! ## The two results as whole arrays

`Z` is the batch of queries (one per row), `mem` the memory (one slot per row) and `N` the column of the slots'
norms.  Both are functions of coordinates; the arrays are these read at an index's two coordinates. -/

/-- Weight `j` of query `b`. -/
def weightAt {B : ℕ} (Z : (⟨2, ![B, D]⟩ : Shape).Idx → EReal) (mem : (⟨2, ![M, D]⟩ : Shape).Idx → EReal)
    (N : (⟨2, ![M, 1]⟩ : Shape).Idx → EReal) (b : Fin B) (j : Fin M) : EReal :=
  weight (fun k => Z (ix2 b k)) (fun k j => mem (ix2 j k)) (fun j => N (ix2 j (0 : Fin 1))) j

/-- Entry `k` of the read-out of query `b`: the weighted sum of the slots' entries `k`. -/
def readAt {B : ℕ} (Z : (⟨2, ![B, D]⟩ : Shape).Idx → EReal) (mem : (⟨2, ![M, D]⟩ : Shape).Idx → EReal)
    (N : (⟨2, ![M, 1]⟩ : Shape).Idx → EReal) (b : Fin B) (k : Fin D) : EReal :=
  ∑ j : Fin M, weightAt Z mem N b j * mem (ix2 j k)

/-- The array of weights. -/
def weights {B : ℕ} (Z : (⟨2, ![B, D]⟩ : Shape).Idx → EReal) (mem : (⟨2, ![M, D]⟩ : Shape).Idx → EReal)
    (N : (⟨2, ![M, 1]⟩ : Shape).Idx → EReal) : (⟨2, ![B, M]⟩ : Shape).Idx → EReal :=
  fun i => weightAt Z mem N (i 0) (i 1)

/-- The array of read-outs. -/
def readout {B : ℕ} (Z : (⟨2, ![B, D]⟩ : Shape).Idx → EReal) (mem : (⟨2, ![M, D]⟩ : Shape).Idx → EReal)
    (N : (⟨2, ![M, 1]⟩ : Shape).Idx → EReal) : (⟨2, ![B, D]⟩ : Shape).Idx → EReal :=
  fun i => readAt Z mem N (i 0) (i 1)

theorem weights_ix2 {B : ℕ} (Z : (⟨2, ![B, D]⟩ : Shape).Idx → EReal) (mem : (⟨2, ![M, D]⟩ : Shape).Idx → EReal)
    (N : (⟨2, ![M, 1]⟩ : Shape).Idx → EReal) (b : Fin B) (j : Fin M) :
    weights Z mem N (ix2 b j) = weightAt Z mem N b j := rfl

theorem readout_ix2 {B : ℕ} (Z : (⟨2, ![B, D]⟩ : Shape).Idx → EReal) (mem : (⟨2, ![M, D]⟩ : Shape).Idx → EReal)
    (N : (⟨2, ![M, 1]⟩ : Shape).Idx → EReal) (b : Fin B) (k : Fin D) :
    readout Z mem N (ix2 b k) = readAt Z mem N b k := rfl

end Cert.Addressing

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibUnitAxes.lean ====
/-
  A matrix carried with two leading axes of extent one, and a matrix transposed, read at an index.

  An `[1, 1, a, b]` array re-laid as `[a, b]` has at `(p, c)` the entry `(0, 0, p, c)`, and the other way round; the
  row-major position of `(0, 0, p, c)` among `1 · 1 · a · b` entries is that of `(p, c)` among `a · b`.
  The transpose of an `[a, b]` matrix has at `(p, c)` the entry `(c, p)`.
-/
import Idealize.ShloMosaic.Lib.Pipeline.Value
import Idealize.ShloMosaic.Lib.ValueIdx

noncomputable section

namespace Cert.Layout

open Idealize.ShloMosaic Idealize.ShloMosaic.ValueIdx

variable {α : Type}

/-- Dropping two leading unit axes: entry `(p, c)` of the matrix is entry `(0, 0, p, c)` of the operand. -/
theorem shapeCast_11ab_ab_apply {a b : ℕ} (v : (⟨4, ![1, 1, a, b]⟩ : Shape).Idx → α)
    (h : (⟨4, ![1, 1, a, b]⟩ : Shape).ShapeCasts ⟨2, ![a, b]⟩) (p : Fin a) (c : Fin b) :
    shapeCast (⟨2, ![a, b]⟩ : Shape) v h (ix2 p c) = v (ix4 (0 : Fin 1) (0 : Fin 1) p c) := by
  refine shapeCast_apply v h (ix2 p c) (ix4 (0 : Fin 1) (0 : Fin 1) p c) ?_
  rw [Shape.rowMajor_val_four, Shape.rowMajor_val_two]
  show ((0 * 1 + 0) * a + p.val) * b + c.val = p.val * b + c.val
  simp

/-- Adding two leading unit axes: entry `(0, 0, p, c)` of the result is entry `(p, c)` of the matrix. -/
theorem shapeCast_ab_11ab_apply {a b : ℕ} (v : (⟨2, ![a, b]⟩ : Shape).Idx → α)
    (h : (⟨2, ![a, b]⟩ : Shape).ShapeCasts ⟨4, ![1, 1, a, b]⟩) (p : Fin a) (c : Fin b) :
    shapeCast (⟨4, ![1, 1, a, b]⟩ : Shape) v h (ix4 (0 : Fin 1) (0 : Fin 1) p c) = v (ix2 p c) := by
  refine shapeCast_apply v h (ix4 (0 : Fin 1) (0 : Fin 1) p c) (ix2 p c) ?_
  rw [Shape.rowMajor_val_four, Shape.rowMajor_val_two]
  show p.val * b + c.val = ((0 * 1 + 0) * a + p.val) * b + c.val
  simp

/-- The transpose of a matrix: entry `(p, c)` is entry `(c, p)` of the operand. -/
theorem transpose_ab_apply {a b : ℕ} (v : (⟨2, ![a, b]⟩ : Shape).Idx → α)
    (h : (⟨2, ![a, b]⟩ : Shape).Transposes [1, 0] ⟨2, ![b, a]⟩) (p : Fin b) (c : Fin a) :
    transpose (⟨2, ![b, a]⟩ : Shape) [1, 0] v h (ix2 p c) = v (ix2 c p) := by
  refine transpose_apply [1, 0] v h (ix2 p c) (ix2 c p) fun ax => ?_
  match ax with
  | ⟨0, _⟩ => rfl
  | ⟨1, _⟩ => rfl

end Cert.Layout

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibRowFolds.lean ====
/-
  Reductions along the second axis of an `[a, b]` array, read at a row.

  At the ideal values a lane sum of row `p` is the sum of the row's entries, and a lane maximum the fold of `max` over
  them from the accumulator's value; the host's reduction by a commutative, associative operation is the same fold
  from its initial value.
-/
import Idealize.ShloMosaic.Lib.ValueIdx
import Idealize.ShloMosaic.PureOps.Ideal.Laws

noncomputable section

namespace Cert.RowFolds

open Idealize.ShloMosaic Idealize.ShloMosaic.ValueIdx

/-- Inserting coordinate `k` on the second axis of the one-coordinate index `p` gives `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

/-- A lane sum over the second axis, at row `p`: the sum of the row. -/
theorem laneSum_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A lane maximum over the second axis, at row `p`: the fold of `max` over the row from the accumulator's value. -/
theorem laneMax_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (Finset.fold max (Ideal.ofBits φ acc) · (Finset.univ : Finset (Fin b)))
      (funext fun k => congrArg v (lift_row h p k)))

/-- The host's reduction over the second axis by a commutative, associative operation, at row `p`: the fold over the
    row from the initial value. -/
theorem hostFold_apply {α : Type} {a b : ℕ} {u : Shape} (f : α → α → α) [Std.Commutative f] [Std.Associative f]
    (x : (⟨2, ![a, b]⟩ : Shape).Idx → α) (init : u.Idx → α) (h' : Shape.ReducesTo ⟨2, ![a, b]⟩ [1] ⟨1, ![a]⟩)
    (h : Shape.Reduces ⟨2, ![a, b]⟩ [1] ⟨1, ![a]⟩) (hu : 0 < u.numel) (p : Fin a) :
    Host.reduce f x init h' hu (ix1 p)
      = (Finset.univ : Finset (Fin b)).fold f (init (Shape.Idx.first hu)) (fun k => x (ix2 p k)) :=
  (Host.reduce_eq_fold_single f x init h' h hu (ix1 p)).trans
    (congrArg (Finset.fold f (init (Shape.Idx.first hu)) · (Finset.univ : Finset (Fin b)))
      (funext fun k => congrArg x (lift_row h p k)))

end Cert.RowFolds

end
-- ==== Proof.Body.lean ====
/-
  The kernel body's arithmetic, read one entry at a time.

  The body works on a block of 256 queries.  Entry `(p, j)` of what it stores as weights depends on row `p` of the
  block only: it is the addressing weight `j` of that row against the transposed memory block and the column of
  norms the body loads.  Entry `(p, k)` of what it stores as read-out is the sum over the slots of those weights
  times the slots' entries `k`.  The roundings to the narrower float format before the two products are the identity
  at the ideal values, a lane reduction is a sum (or a fold of `max`) over the row, and a product into a zero
  accumulator a plain sum over the contracted coordinate.
-/
import proofs.«118871_j4054449127999_1_alg».proof.Proof.Gen.KernelIdeal.Skeleton
import proofs.«118871_j4054449127999_1_alg».proof.Proof.Addressing
import proofs.«118871_j4054449127999_1_alg».proof.Proof.LibBroadcast
import proofs.«118871_j4054449127999_1_alg».proof.Proof.LibRowsProduct
import proofs.«118871_j4054449127999_1_alg».proof.Proof.LibUnitAxes
import proofs.«118871_j4054449127999_1_alg».proof.Proof.LibPlainProduct
import proofs.«118871_j4054449127999_1_alg».proof.Proof.LibRowFolds
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.Addressing

/-! ## The operations that are not pointwise, at this body's shapes -/

section Pointwise
variable {s : Shape} {φ : FTy}
theorem sqrt_apply (a : FVec Ideal s φ) (i : s.Idx) : sqrt a i = Ideal.sqrt (a i) := rfl
theorem exp_apply (a : FVec Ideal s φ) (i : s.Idx) : exp a i = Ideal.exp (a i) := rfl
theorem absf_apply (a : FVec Ideal s φ) (i : s.Idx) : absf a i = max (a i) (-(a i)) := rfl
end Pointwise

/-- The column of norms turned into a row: entry `(0, j)` is entry `(j, 0)`. -/
theorem normRow_apply (x3 : FVec Ideal S600x1 .f32) (j : Fin 600) :
    transpose S1x600 ([1, 0] : List (Fin 2)) x3 transposes_S600x1_p1_0_S1x600 (ix2 (0 : Fin 1) j) = x3 (ix2 j (0 : Fin 1)) :=
  Cert.Layout.transpose_ab_apply _ _ _ _

/-- The sum of a row of 4096 entries. -/
theorem rowSum4096_apply (v : FVec Ideal S256x4096 .f32) (hφ : FKind.Formats .f32)
    (hacc : (0x00000000#32 : BitVec 32) = 0x00000000#32) (p : Fin 256) :
    multiReduction .add ([1] : List (Fin 2)) S256 v 0x00000000#32 reduces_S256x4096_S256 hφ hacc (ix1 p)
      = ∑ k : Fin 4096, v (ix2 p k) :=
  Cert.RowFolds.laneSum_apply _ _ _ _ _ _

/-- The sum of a row of 600 entries. -/
theorem rowSum600_apply (v : FVec Ideal S256x600 .f32) (hφ : FKind.Formats .f32)
    (hacc : (0x00000000#32 : BitVec 32) = 0x00000000#32) (p : Fin 256) :
    multiReduction .add ([1] : List (Fin 2)) S256 v 0x00000000#32 reduces_S256x600_S256 hφ hacc (ix1 p)
      = ∑ k : Fin 600, v (ix2 p k) :=
  Cert.RowFolds.laneSum_apply _ _ _ _ _ _

/-- The maximum of a row of 600 entries, folded from the accumulator's value. -/
theorem rowMax600_apply (v : FVec Ideal S256x600 .f32) (hφ : FKind.Formats .f32)
    (hacc : (0xFF800000#32 : BitVec 32) = 0xFF800000#32) (p : Fin 256) :
    multiReduction .maximumf ([1] : List (Fin 2)) S256 v 0xFF800000#32 reduces_S256x600_S256 hφ hacc (ix1 p)
      = (Finset.univ : Finset (Fin 600)).fold max (Ideal.ofBits .f32 0xFF800000#32) (fun k => v (ix2 p k)) :=
  Cert.RowFolds.laneMax_apply _ _ _ _ _ _

/-- The product of the query block with the transposed memory, into the zero accumulator. -/
theorem innerProducts_apply (A : FVec Ideal S256x4096 .bf16) (B : FVec Ideal S4096x600 .bf16) (p : Fin 256) (j : Fin 600) :
    matmul dot_S256x4096_S4096x600_S256x600_1_0_0_1_n_n none A B (constant (F := Ideal) S256x600 .f32 0x00000000#32) (ix2 p j)
      = ∑ k : Fin 4096, A (ix2 p k) * B (ix2 k j) := by
  unfold dot_S256x4096_S4096x600_S256x600_1_0_0_1_n_n
  exact Cert.PlainProduct.matmul_nn_apply _ _ _ _ _ _

/-- The product of the weights with the memory, into the zero accumulator. -/
theorem weightedSlots_apply (A : FVec Ideal S256x600 .bf16) (B : FVec Ideal S600x4096 .bf16) (p : Fin 256) (k : Fin 4096) :
    matmul dot_S256x600_S600x4096_S256x4096_1_0_0_1_n_n none A B (constant (F := Ideal) S256x4096 .f32 0x00000000#32) (ix2 p k)
      = ∑ j : Fin 600, A (ix2 p j) * B (ix2 j k) := by
  unfold dot_S256x600_S600x4096_S256x4096_1_0_0_1_n_n
  exact Cert.PlainProduct.matmul_nn_apply _ _ _ _ _ _

/-! ## The body's stored values -/

/-- The shrunk softmax row the body computes, at `(p, j)`: that of row `p` of the query block. -/
theorem raw_apply (x0 : FVec Ideal S256x4096 .f32) (x1 : FVec Ideal S4096x600 .bf16) (x3 : FVec Ideal S600x1 .f32)
    (p : Fin 256) (j : Fin 600) :
    k0_pay4 (F := Ideal) x0 x1 x3 (ix2 p j)
      = raw (fun k => x0 (ix2 p k)) (fun k j => x1 (ix2 k j)) (fun j => x3 (ix2 j (0 : Fin 1))) j := by
  unfold k0_pay4
  simp only [divf_apply, mulf_apply, addf_apply, subf_apply, maximumf_apply, broadcast_apply, sqrt_apply, exp_apply, absf_apply,
    truncf_apply, shapeCast_self, Cert.Layout.broadcastTo_a1_ab_apply, Cert.Layout.shapeCast_col_apply,
    Cert.RowsProduct.broadcastTo_1n_an_apply, normRow_apply, innerProducts_apply, rowSum4096_apply, rowSum600_apply,
    rowMax600_apply]
  rfl

/-- The weights the body stores, at `(p, j)`: the shrunk row over its floored `ℓ¹` norm. -/
theorem stored_weight (v40 v41 : FVec Ideal S256x600 .f32) (p : Fin 256) (j : Fin 600) :
    k0_pay1 (F := Ideal) v40 v41 (ix2 p j) = Ideal.div (v40 (ix2 p j)) (max (∑ i, v41 (ix2 p i)) guard) := by
  unfold k0_pay1
  simp only [divf_apply, maximumf_apply, broadcast_apply, Cert.Layout.broadcastTo_a1_ab_apply, Cert.Layout.shapeCast_col_apply,
    rowSum600_apply]
  rfl

/-- The weights the body stores are the addressing weights of the block's rows. -/
theorem weight_apply (x0 : FVec Ideal S256x4096 .f32) (x1 : FVec Ideal S4096x600 .bf16) (x3 : FVec Ideal S600x1 .f32)
    (p : Fin 256) (j : Fin 600) :
    k0_pay1 (F := Ideal) (k0_pay4 x0 x1 x3) (k0_pay5 x0 x1 x3) (ix2 p j)
      = weight (fun k => x0 (ix2 p k)) (fun k j => x1 (ix2 k j)) (fun j => x3 (ix2 j (0 : Fin 1))) j := by
  rw [stored_weight]
  unfold k0_pay5 weight
  simp only [absf_apply, raw_apply]

/-- The read-out the body stores, at `(p, k)`: the weights of row `p` against the slots' entries `k`. -/
theorem readout_apply (x0 : FVec Ideal S256x4096 .f32) (x1 : FVec Ideal S4096x600 .bf16) (x2 : FVec Ideal S600x4096 .bf16)
    (x3 : FVec Ideal S600x1 .f32) (p : Fin 256) (k : Fin 4096) :
    k0_pay2 (F := Ideal) (k0_pay3 x2) (k0_pay4 x0 x1 x3) (k0_pay5 x0 x1 x3) (ix2 p k)
      = ∑ j : Fin 600, weight (fun k => x0 (ix2 p k)) (fun k j => x1 (ix2 k j)) (fun j => x3 (ix2 j (0 : Fin 1))) j
          * x2 (ix2 j k) := by
  unfold k0_pay2 k0_pay3
  simp only [weightedSlots_apply, truncf_apply, shapeCast_self, weight_apply]

end Cert.KernelIdeal.Body

end
-- ==== Proof.Entry.lean ====
/-
  What the kernel's region finds in the four arrays it reads, as functions of the two arguments.

  The queries are the first argument re-laid as `[8192, 4096]`.  The memory reaches the region three times: as it
  is, transposed, and as the column of its rows' Euclidean norms (the square root of each row's sum of squares, the
  sum started from the printed zero).  The changes of float format on the way are the identity at the ideal values.
-/
import proofs.«118871_j4054449127999_1_alg».proof.Proof.Gen.KernelIdeal.Frame
import proofs.«118871_j4054449127999_1_alg».proof.Proof.LibUnitAxes
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The column of the memory rows' Euclidean norms, as the host computes it. -/
def norms (mem : FVec Ideal S600x4096 .f32) : FVec Ideal S600x1 .f32 :=
  Host.sqrt (F := Ideal) (broadcastInDim S600x1 ![0] bcast_S600_S600x1_0
    (Host.reduceAdd (F := Ideal) (mulf mem mem) (constant (F := Ideal) S_ .f32 0x00000000#32) reducesTo_S600x4096_S600_d1 h_S_))

/-- The queries as the region finds them: the first argument re-laid as a matrix. -/
theorem queries (c : Dev nD) :
    (V m c main_v0 : S8192x4096.Idx → EReal)
      = shapeCast S8192x4096 (m ((c : Thread nD τ).loc main_arg0) : S8192x256x4x4.Idx → EReal) shapeCasts_S8192x256x4x4_S8192x4096 := by
  dsimp only [V, V0]
  simp only [hostOps0, hostOps0_1, hostOps0_2, List.flatten_cons, List.flatten_nil, List.append_nil, List.cons_append,
    List.nil_append]
  after_results
  rfl

/-- The memory as the region finds it for the read-out: the second argument. -/
theorem slots (c : Dev nD) :
    (V m c main_v2 : S600x4096.Idx → EReal) = (m ((c : Thread nD τ).loc main_arg1) : S600x4096.Idx → EReal) := by
  dsimp only [V, V0]
  simp only [hostOps0, hostOps0_1, hostOps0_2, List.flatten_cons, List.flatten_nil, List.append_nil, List.cons_append,
    List.nil_append]
  after_results
  rfl

/-- The transposed memory as the region finds it. -/
theorem slotsT (c : Dev nD) :
    (V m c main_v4 : S4096x600.Idx → EReal)
      = transpose S4096x600 [1, 0] (m ((c : Thread nD τ).loc main_arg1) : S600x4096.Idx → EReal) transposes_S600x4096_S4096x600_1_0 := by
  dsimp only [V, V0]
  simp only [hostOps0, hostOps0_1, hostOps0_2, List.flatten_cons, List.flatten_nil, List.append_nil, List.cons_append,
    List.nil_append]
  after_results
  rfl

/-- Entry `(k, j)` of the transposed memory is entry `(j, k)` of the memory. -/
theorem slotsT_apply (c : Dev nD) (k : Fin 4096) (j : Fin 600) :
    (V m c main_v4 : S4096x600.Idx → EReal) (ix2 k j) = (m ((c : Thread nD τ).loc main_arg1) : S600x4096.Idx → EReal) (ix2 j k) := by
  rw [slotsT]
  exact Cert.Layout.transpose_ab_apply _ _ k j

/-- The column of norms as the region finds it. -/
theorem slotNorms (c : Dev nD) :
    (V m c main_v1 : S600x1.Idx → EReal) = norms (m ((c : Thread nD τ).loc main_arg1) : S600x4096.Idx → EReal) := by
  dsimp only [V, V0]
  simp only [hostOps0, hostOps0_1, hostOps0_2, List.flatten_cons, List.flatten_nil, List.append_nil, List.cons_append,
    List.nil_append]
  after_results
  rfl

end Cert.KernelIdeal.Entry

end
-- ==== Proof.Blocks.lean ====
/-
  From the blocks to the arrays.

  Point `t` of the grid (32 points) handles the queries `256 t, …, 256 t + 255`: its query block is those rows of the
  query array, its two output blocks are the same rows of the weights and of the read-out, and the three views of the
  memory are read whole at every point.  So what point `t` writes back is block `t` of ONE function of the arrays the
  region finds — the addressing weights, and the read-out, of each query against the memory — and since every row lies
  in exactly one block, the two output arrays end holding those functions.
-/
import proofs.«118871_j4054449127999_1_alg».proof.Proof.Gen.KernelIdeal.Frame
import proofs.«118871_j4054449127999_1_alg».proof.Proof.Body
import proofs.«118871_j4054449127999_1_alg».proof.Proof.Entry
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.Addressing
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps, decided over the grid: the query block and the two output blocks sit at block row `t`, the
    three views of the memory at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The query a row of a block stands for. -/
def queryOf (t : Fin cfg0.N) (p : Fin 256) : Fin 8192 :=
  ⟨t.val * 256 + p.val, by have hN : cfg0.N = 32 := N_0; have := t.isLt; have := p.isLt; omega⟩

theorem queryOf_val (t : Fin cfg0.N) (p : Fin 256) : (queryOf t p).val = t.val * 256 + p.val := rfl

/-! ## The input blocks -/

/-- Row `p` of point `t`'s query block is query `256 t + p`. -/
theorem queryBlock_apply (c : Dev nD) (t : Fin cfg0.N) (p : Fin 256) (k : Fin 4096) :
    (iblk m c 0 t : S256x4096.Idx → EReal) (ix2 p k) = (V m c main_v0 : S8192x4096.Idx → EReal) (ix2 (queryOf t p) k) := by
  obtain ⟨e0, e1, -⟩ := idx_facts t
  unfold iblk
  rw [View.read_apply]
  show V m c main_v0 (((cfg0.win 0).blk t).view.emb (ix2 p k)) = V m c main_v0 (ix2 (queryOf t p) k)
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 4096 + 1 * k.val = k.val; omega

/-- The transposed memory is read whole at every point. -/
theorem slotsTBlock_apply (c : Dev nD) (t : Fin cfg0.N) (k : Fin 4096) (j : Fin 600) :
    (iblk m c 1 t : S4096x600.Idx → EReal) (ix2 k j) = (V m c main_v4 : S4096x600.Idx → EReal) (ix2 k j) := by
  obtain ⟨-, -, e0, e1, -⟩ := idx_facts t
  unfold iblk
  rw [View.read_apply]
  show V m c main_v4 (((cfg0.win 1).blk t).view.emb (ix2 k j)) = V m c main_v4 (ix2 k j)
  refine congrArg _ (funext fun a => Fin.ext ?_)
  match a with
  | ⟨0, _⟩ => show win0_1.index t (0 : Fin 2) * 4096 + 1 * k.val = k.val; omega
  | ⟨1, _⟩ => show win0_1.index t (1 : Fin 2) * 600 + 1 * j.val = j.val; omega

/-- The memory is read whole at every point. -/
theorem slotsBlock_apply (c : Dev nD) (t : Fin cfg0.N) (j : Fin 600) (k : Fin 4096) :
    (iblk m c 2 t : S600x4096.Idx → EReal) (ix2 j k) = (V m c main_v2 : S600x4096.Idx → EReal) (ix2 j k) := by
  obtain ⟨-, -, -, -, e0, e1, -⟩ := idx_facts t
  unfold iblk
  rw [View.read_apply]
  show V m c main_v2 (((cfg0.win 2).blk t).view.emb (ix2 j k)) = V m c main_v2 (ix2 j k)
  refine congrArg _ (funext fun a => Fin.ext ?_)
  match a with
  | ⟨0, _⟩ => show win0_2.index t (0 : Fin 2) * 600 + 1 * j.val = j.val; omega
  | ⟨1, _⟩ => show win0_2.index t (1 : Fin 2) * 4096 + 1 * k.val = k.val; omega

/-- The column of norms is read whole at every point. -/
theorem normsBlock_apply (c : Dev nD) (t : Fin cfg0.N) (j : Fin 600) :
    (iblk m c 3 t : S600x1.Idx → EReal) (ix2 j (0 : Fin 1)) = (V m c main_v1 : S600x1.Idx → EReal) (ix2 j (0 : Fin 1)) := by
  obtain ⟨-, -, -, -, -, -, e0, e1, -⟩ := idx_facts t
  unfold iblk
  rw [View.read_apply]
  show V m c main_v1 (((cfg0.win 3).blk t).view.emb (ix2 j (0 : Fin 1))) = V m c main_v1 (ix2 j (0 : Fin 1))
  refine congrArg _ (funext fun a => Fin.ext ?_)
  match a with
  | ⟨0, _⟩ => show win0_3.index t (0 : Fin 2) * 600 + 1 * j.val = j.val; omega
  | ⟨1, _⟩ => show win0_3.index t (1 : Fin 2) * 1 + 1 * 0 = 0; omega

/-! ## The two functions the output arrays end holding -/

/-- The weights of every query against the memory, from the arrays as the region finds them. -/
abbrev W (c : Dev nD) : S8192x600.Idx → EReal :=
  weights (V m c main_v0 : S8192x4096.Idx → EReal) (m ((c : Thread nD τ).loc main_arg1) : S600x4096.Idx → EReal)
    (V m c main_v1 : S600x1.Idx → EReal)

/-- The read-out of every query. -/
abbrev R (c : Dev nD) : S8192x4096.Idx → EReal :=
  readout (V m c main_v0 : S8192x4096.Idx → EReal) (m ((c : Thread nD τ).loc main_arg1) : S600x4096.Idx → EReal)
    (V m c main_v1 : S600x1.Idx → EReal)

/-- The three row functions the body's weights are taken of, at point `t` and row `p`, are those of query `256 t + p`. -/
theorem blockWeight (c : Dev nD) (t : Fin cfg0.N) (p : Fin 256) (j : Fin 600) :
    weight (fun k => (iblk m c 0 t : S256x4096.Idx → EReal) (ix2 p k))
        (fun k j => (iblk m c 1 t : S4096x600.Idx → EReal) (ix2 k j))
        (fun j => (iblk m c 3 t : S600x1.Idx → EReal) (ix2 j (0 : Fin 1))) j
      = W m c (ix2 (queryOf t p) j) := by
  have h0 : (fun k => (iblk m c 0 t : S256x4096.Idx → EReal) (ix2 p k))
      = fun k => (V m c main_v0 : S8192x4096.Idx → EReal) (ix2 (queryOf t p) k) :=
    funext fun k => queryBlock_apply m c t p k
  have h1 : (fun k j => (iblk m c 1 t : S4096x600.Idx → EReal) (ix2 k j))
      = fun k j => (m ((c : Thread nD τ).loc main_arg1) : S600x4096.Idx → EReal) (ix2 j k) :=
    funext fun k => funext fun j => (slotsTBlock_apply m c t k j).trans (Entry.slotsT_apply m c k j)
  have h3 : (fun j => (iblk m c 3 t : S600x1.Idx → EReal) (ix2 j (0 : Fin 1)))
      = fun j => (V m c main_v1 : S600x1.Idx → EReal) (ix2 j (0 : Fin 1)) :=
    funext fun j => normsBlock_apply m c t j
  rw [h0, h1, h3]
  rfl

/-! ## What a point writes back -/

/-- The weights point `t` writes back are block `t` of `W`. -/
theorem flushedWeights (c : Dev nD) (t : Fin cfg0.N) :
    (dats m 0 c).flushed 5 t = ((cfg0.win 5).blk t).view.read (Elt Ideal) (W m c) := by
  obtain ⟨-, -, -, -, -, -, -, -, -, -, e0, e1⟩ := idx_facts t
  show (cfg0.win 5).cut (grid0.coords t) ((dats m 0 c).after 5 t) = _
  rw [after0_5]
  unfold out0_5
  rw [View.canon_unit_zero hz]
  simp only [View.ld_unit_zero (S := S256x4096) hz, View.ld_unit_zero (S := S4096x600) hz, View.ld_unit_zero (S := S600x1) hz]
  funext y
  show k0_pay1 (F := Ideal) (k0_pay4 (iblk m c 0 t) (iblk m c 1 t) (iblk m c 3 t)) (k0_pay5 (iblk m c 0 t) (iblk m c 1 t) (iblk m c 3 t)) y
    = W m c (((cfg0.win 5).blk t).view.emb y)
  have hy : y = ix2 (y 0) (y 1) := eq_ix2 y
  have hemb : ((cfg0.win 5).blk t).view.emb y = ix2 (queryOf t (y 0)) (y 1) := by
    funext a; apply Fin.ext
    match a with
    | ⟨0, _⟩ => show win0_5.index t (0 : Fin 2) * 256 + 1 * (y 0).val = t.val * 256 + (y 0).val; omega
    | ⟨1, _⟩ => show win0_5.index t (1 : Fin 2) * 600 + 1 * (y 1).val = (y 1).val; omega
  rw [hemb, hy]
  exact (Body.weight_apply (iblk m c 0 t) (iblk m c 1 t) (iblk m c 3 t) (y 0) (y 1)).trans (blockWeight m c t (y 0) (y 1))

/-- The read-out point `t` writes back is block `t` of `R`. -/
theorem flushedReadout (c : Dev nD) (t : Fin cfg0.N) :
    (dats m 0 c).flushed 4 t = ((cfg0.win 4).blk t).view.read (Elt Ideal) (R m c) := by
  obtain ⟨-, -, -, -, -, -, -, -, e0, e1, -⟩ := idx_facts t
  show (cfg0.win 4).cut (grid0.coords t) ((dats m 0 c).after 4 t) = _
  rw [after0_4]
  unfold out0_4
  rw [View.canon_unit_zero hz]
  simp only [View.ld_unit_zero (S := S256x4096) hz, View.ld_unit_zero (S := S4096x600) hz, View.ld_unit_zero (S := S600x4096) hz,
    View.ld_unit_zero (S := S600x1) hz]
  funext y
  show k0_pay2 (F := Ideal) (k0_pay3 (iblk m c 2 t)) (k0_pay4 (iblk m c 0 t) (iblk m c 1 t) (iblk m c 3 t))
      (k0_pay5 (iblk m c 0 t) (iblk m c 1 t) (iblk m c 3 t)) y
    = R m c (((cfg0.win 4).blk t).view.emb y)
  have hy : y = ix2 (y 0) (y 1) := eq_ix2 y
  have hemb : ((cfg0.win 4).blk t).view.emb y = ix2 (queryOf t (y 0)) (y 1) := by
    funext a; apply Fin.ext
    match a with
    | ⟨0, _⟩ => show win0_4.index t (0 : Fin 2) * 256 + 1 * (y 0).val = t.val * 256 + (y 0).val; omega
    | ⟨1, _⟩ => show win0_4.index t (1 : Fin 2) * 4096 + 1 * (y 1).val = (y 1).val; omega
  rw [hemb, hy]
  refine (Body.readout_apply (iblk m c 0 t) (iblk m c 1 t) (iblk m c 2 t) (iblk m c 3 t) (y 0) (y 1)).trans ?_
  show _ = ∑ j : Fin 600, W m c (ix2 (queryOf t (y 0)) j) * (m ((c : Thread nD τ).loc main_arg1) : S600x4096.Idx → EReal) (ix2 j (y 1))
  refine Finset.sum_congr rfl fun j _ => ?_
  rw [blockWeight m c t (y 0) j, slotsBlock_apply m c t j (y 1), Entry.slots m c]

/-! ## The cover and the arrays after the run -/

theorem mem_weightsBlock (t : Fin cfg0.N) (i : S8192x600.Idx) :
    i ∈ ((cfg0.win 5).blk t).view.set ↔ ∀ a : Fin 2, win0_5.index t a * S256x600.size a ≤ (i a).val ∧ (i a).val < win0_5.index t a * S256x600.size a + S256x600.size a := by
  show i ∈ ((View.whole main_v5_1).slice (win0_5.rect t)).set ↔ _
  rw [View.set_slice_whole, Rect.mem_set_unit]
  exact Iff.rfl

theorem mem_readoutBlock (t : Fin cfg0.N) (i : S8192x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v5_0).slice (win0_4.rect t)).set ↔ _
  rw [View.set_slice_whole, Rect.mem_set_unit]
  exact Iff.rfl

/-- Every entry of the weights lies in the block of the point its row belongs to. -/
theorem weights_cover (i : S8192x600.Idx) :
    ∃ t : Fin cfg0.N, (cfg0.win 5).flush t = true ∧ i ∈ ((cfg0.win 5).blk t).view.set := by
  have hN : cfg0.N = 32 := N_0
  have hi0 : (i 0).val < 8192 := (i 0).isLt
  have hi1 : (i 1).val < 600 := (i 1).isLt
  obtain ⟨t, ht⟩ : ∃ t : Fin cfg0.N, t.val = (i 0).val / 256 := ⟨⟨(i 0).val / 256, by omega⟩, rfl⟩
  obtain ⟨-, -, -, -, -, -, -, -, -, -, e0, e1⟩ := idx_facts t
  refine ⟨t, flush0_5 t, ?_⟩
  rw [mem_weightsBlock]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 600 ≤ (i 1).val ∧ (i 1).val < win0_5.index t (1 : Fin 2) * 600 + 600; omega

/-- Every entry of the read-out lies in the block of the point its row belongs to. -/
theorem readout_cover (i : S8192x4096.Idx) :
    ∃ t : Fin cfg0.N, (cfg0.win 4).flush t = true ∧ i ∈ ((cfg0.win 4).blk t).view.set := by
  have hN : cfg0.N = 32 := N_0
  have hi0 : (i 0).val < 8192 := (i 0).isLt
  have hi1 : (i 1).val < 4096 := (i 1).isLt
  obtain ⟨t, ht⟩ : ∃ t : Fin cfg0.N, t.val = (i 0).val / 256 := ⟨⟨(i 0).val / 256, by omega⟩, rfl⟩
  obtain ⟨-, -, -, -, -, -, -, -, e0, e1, -⟩ := idx_facts t
  refine ⟨t, flush0_4 t, ?_⟩
  rw [mem_readoutBlock]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega

/-- The weights array after the run. -/
theorem finalWeights (c : Dev nD) : (dats m 0 c).arrAt 5 cfg0.N = W m c :=
  (dats m 0 c).arrAt_eq_of_cover 5 (W m c) (fun t _ => flushedWeights m c t) weights_cover

/-- The read-out array after the run. -/
theorem finalReadout (c : Dev nD) : (dats m 0 c).arrAt 4 cfg0.N = R m c :=
  (dats m 0 c).arrAt_eq_of_cover 4 (R m c) (fun t _ => flushedReadout m c t) readout_cover

end Cert.KernelIdeal.Blocks

end
-- ==== Proof.Results.lean ====
/-
  The kernel's run, with its two results named.

  After the region the weights array holds the weights of every query, and the one host operation that follows re-lays
  the read-out array in the first argument's four-axis shape.
-/
import proofs.«118871_j4054449127999_1_alg».proof.Proof.Gen.KernelIdeal.Frame
import proofs.«118871_j4054449127999_1_alg».proof.Proof.Blocks
import Idealize.ShloMosaic.Lib.StableHlo.Run
import Idealize.ShloMosaic.Lib.Pipeline.Value

noncomputable section

namespace Cert.KernelIdeal.Results

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The read-out in the first argument's shape. -/
abbrev readout4 (c : Dev nD) : S8192x256x4x4.Idx → EReal :=
  shapeCast S8192x256x4x4 (Blocks.R m c) shapeCasts_S8192x4096_S8192x256x4x4

/-- What the host operation after the region leaves in the first result: the read-out array re-laid. -/
theorem tailReadout (c : Dev nD) :
    (Pipeline.afterTail₀ cfgs (dats m) 0 (V0 m) [hostOps1] c main_v6 : S8192x256x4x4.Idx → EReal) = readout4 m c := by
  have e : Pipeline.withArrays (cfgs 0).spec c (V0 m c) (fun w => (dats m 0 c).arrAt w (cfgs 0).N) (Proc.devRef .tc main_v5_0)
      = Blocks.R m c :=
    (Pipeline.withArrays_arr spec0 launch0.win.arr_inj c _ _ 4).trans (Blocks.finalReadout m c)
  unfold Pipeline.afterTail₀
  show StableHlo.after hostOps1 _ (Proc.devRef .tc main_v6) = _
  after_results
  rw [e]
  rfl

/-- The run: the first result ends at the re-laid read-out, the second at the weights, the arguments unchanged. -/
theorem run : θ_run defs (onTc (τ := τ) (main (F := Ideal))) ⟨m, fun _ => 0, ρ⟩ fun r => ∀ c : Dev nD,
      r.2.mem ((c.tc : Thread nD τ).loc main_v6) = readout4 m c
      ∧ r.2.mem ((c.tc : Thread nD τ).loc main_v5_1) = Blocks.W m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v6 (Pipeline.mem_restRefs_of main_v6 (by decide) (by decide))).trans (tailReadout m c),
       ((h c).1 5).trans (Blocks.finalWeights m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Results

end
-- ==== Proof.Reference.lean ====
/-
  The reference, read one entry at a time.

  The reference computes, for every query `b` (a row of the first argument re-laid as `[8192, 4096]`) and every
  memory slot `j`, the same addressing weight as the specification, and reads the memory out with those weights.
  Its sums start from the printed zero, which is the extended real `0`; its row maximum is a fold of `max` from the
  printed initial value.  The queries' re-laying and the column of the slots' norms are carried as they are, unopened.
-/
import proofs.«118871_j4054449127999_1_alg».proof.Proof.Gen.ReferenceIdeal.Read
import proofs.«118871_j4054449127999_1_alg».proof.Proof.Addressing
import proofs.«118871_j4054449127999_1_alg».proof.Proof.LibRowFolds
import Idealize.ShloMosaic.Lib.Pipeline.Value
import Idealize.ShloMosaic.Lib.ValueIdx
import Idealize.ShloMosaic.PureOps.Ideal.Laws

noncomputable section

namespace Cert.ReferenceIdeal.Rows

open Cert.ReferenceIdeal Cert.ReferenceIdeal.Read Idealize.ShloMosaic Idealize.ShloMosaic.ValueIdx Cert.Addressing

variable (x0 : (⟨S8192x256x4x4, .f32⟩ : BufTy).Contents (Elt Ideal)) (x1 : (⟨S600x4096, .f32⟩ : BufTy).Contents (Elt Ideal))

/-- A sum started from the printed zero is the sum. -/
theorem zero_start {n : ℕ} (f : Fin n → EReal) : FloatOps.ofBits (F := Ideal) .f32 0x00000000#32 + ∑ k, f k = ∑ k, f k := by
  rw [Ideal.ofBits_def, Ideal.ofBits_zero_f32, zero_add]

/-! ## The indices the stages read their operands at -/

theorem i_v4 (b : Fin 8192) (j : Fin 600) : idx_main_v4 (ix2 b j) = ix2 b (0 : Fin 1) :=
  funext fun a => Fin.ext (by match a with | ⟨0, _⟩ => rfl | ⟨1, _⟩ => rfl)
theorem i_c0v2 (b : Fin 8192) : idx_main_call0_v2 (ix2 b (0 : Fin 1)) = ix1 b :=
  funext fun a => Fin.ext (by match a with | ⟨0, _⟩ => rfl)
theorem i_c0v1 (b : Fin 8192) (k : Fin 4096) : idx_main_call0_v1 (ix1 b) k = ix2 b k :=
  funext fun a => Fin.ext (by match a with | ⟨0, _⟩ => rfl | ⟨1, _⟩ => rfl)
theorem i_v5 (b : Fin 8192) (j : Fin 600) : idx_main_v5 (ix2 b j) = ix2 (0 : Fin 1) j :=
  funext fun a => Fin.ext (by match a with | ⟨0, _⟩ => rfl | ⟨1, _⟩ => rfl)
theorem i_v3 (j : Fin 600) : idx_main_v3 (ix2 (0 : Fin 1) j) = ix2 j (0 : Fin 1) :=
  funext fun a => Fin.ext (by match a with | ⟨0, _⟩ => rfl | ⟨1, _⟩ => rfl)
theorem i_v9 (k : Fin 4096) (j : Fin 600) : idx_main_v9 (ix2 k j) = ix2 j k :=
  funext fun a => Fin.ext (by match a with | ⟨0, _⟩ => rfl | ⟨1, _⟩ => rfl)
theorem i_l10 (b : Fin 8192) (j : Fin 600) (k : Fin 4096) : lidx_main_v10 (ix2 b j) k = ix2 b k :=
  funext fun a => Fin.ext (by match a with | ⟨0, _⟩ => rfl | ⟨1, _⟩ => rfl)
theorem i_r10 (b : Fin 8192) (j : Fin 600) (k : Fin 4096) : ridx_main_v10 (ix2 b j) k = ix2 k j :=
  funext fun a => Fin.ext (by match a with | ⟨0, _⟩ => rfl | ⟨1, _⟩ => rfl)
theorem i_v16 (b : Fin 8192) (j : Fin 600) : idx_main_v16 (ix2 b j) = ix2 b (0 : Fin 1) :=
  funext fun a => Fin.ext (by match a with | ⟨0, _⟩ => rfl | ⟨1, _⟩ => rfl)
theorem i_v15 (b : Fin 8192) : idx_main_v15 (ix2 b (0 : Fin 1)) = ix1 b :=
  funext fun a => Fin.ext (by match a with | ⟨0, _⟩ => rfl)
theorem i_v21 (b : Fin 8192) (j : Fin 600) : idx_main_v21 (ix2 b j) = ix2 b (0 : Fin 1) :=
  funext fun a => Fin.ext (by match a with | ⟨0, _⟩ => rfl | ⟨1, _⟩ => rfl)
theorem i_v20 (b : Fin 8192) : idx_main_v20 (ix2 b (0 : Fin 1)) = ix1 b :=
  funext fun a => Fin.ext (by match a with | ⟨0, _⟩ => rfl)
theorem i_v19 (b : Fin 8192) (k : Fin 600) : idx_main_v19 (ix1 b) k = ix2 b k :=
  funext fun a => Fin.ext (by match a with | ⟨0, _⟩ => rfl | ⟨1, _⟩ => rfl)
theorem i_v36 (b : Fin 8192) (j : Fin 600) : idx_main_v36 (ix2 b j) = ix2 b (0 : Fin 1) :=
  funext fun a => Fin.ext (by match a with | ⟨0, _⟩ => rfl | ⟨1, _⟩ => rfl)
theorem i_v33 (b : Fin 8192) : idx_main_v33 (ix2 b (0 : Fin 1)) = ix1 b :=
  funext fun a => Fin.ext (by match a with | ⟨0, _⟩ => rfl)
theorem i_v32 (b : Fin 8192) (k : Fin 600) : idx_main_v32 (ix1 b) k = ix2 b k :=
  funext fun a => Fin.ext (by match a with | ⟨0, _⟩ => rfl | ⟨1, _⟩ => rfl)
theorem i_l38 (b : Fin 8192) (k : Fin 4096) (j : Fin 600) : lidx_main_v38 (ix2 b k) j = ix2 b j :=
  funext fun a => Fin.ext (by match a with | ⟨0, _⟩ => rfl | ⟨1, _⟩ => rfl)
theorem i_r38 (b : Fin 8192) (k : Fin 4096) (j : Fin 600) : ridx_main_v38 (ix2 b k) j = ix2 j k :=
  funext fun a => Fin.ext (by match a with | ⟨0, _⟩ => rfl | ⟨1, _⟩ => rfl)

/-! ## The stages -/

/-- The three row functions of query `b`. -/
abbrev q (b : Fin 8192) : Fin 4096 → EReal := fun k => val_main_v0 (F := Ideal) x0 (ix2 b k)
abbrev mt : Fin 4096 → Fin 600 → EReal := fun k j => x1 (ix2 j k)
abbrev mn : Fin 600 → EReal := fun j => val_main_v2 (F := Ideal) x1 (ix2 j (0 : Fin 1))

/-- The cosines. -/
theorem cosine_apply (b : Fin 8192) (j : Fin 600) :
    val_main_v11 (F := Ideal) x0 x1 (ix2 b j) = cosine (q x0 b) (mt x1) (mn x1) j := by
  simp only [val_main_v11_apply, val_main_v10_apply, val_main_v8_apply, val_main_v6_apply, val_main_v7_apply, val_main_cst_apply,
    val_main_v4_apply, val_main_v1_apply, val_main_call0_v2_apply, val_main_call0_v1_apply, val_main_call0_v0_apply,
    val_main_call0_cst_apply, val_main_v5_apply, val_main_v3_apply, val_main_v9_apply,
    i_v4, i_c0v2, i_c0v1, i_v5, i_v3, i_v9, i_l10, i_r10, zero_start]
  rfl

/-- The row maximum. -/
theorem peak_apply (b : Fin 8192) :
    val_main_v14 (F := Ideal) x0 x1 (ix1 b) = peak (cosine (q x0 b) (mt x1) (mn x1)) := by
  rw [val_main_v14_apply, val_main_v13_apply, val_main_cst_1_apply]
  unfold val_main_v12
  rw [Cert.RowFolds.hostFold_apply FloatOps.maximumf _ _ _ (by decide) _ b]
  simp only [cosine_apply]
  rfl

/-- The softmax. -/
theorem softmax_apply (b : Fin 8192) (j : Fin 600) :
    val_main_v22 (F := Ideal) x0 x1 (ix2 b j) = softmax (cosine (q x0 b) (mt x1) (mn x1)) j := by
  simp only [val_main_v22_apply, val_main_v21_apply, val_main_v20_apply, val_main_v19_apply, val_main_cst_2_apply,
    val_main_v18_apply, val_main_v17_apply, val_main_v16_apply, val_main_v15_apply,
    i_v21, i_v20, i_v19, i_v16, i_v15, zero_start, peak_apply, cosine_apply]
  rfl

/-- The shrunk row. -/
theorem raw_apply (b : Fin 8192) (j : Fin 600) :
    val_main_v30 (F := Ideal) x0 x1 (ix2 b j) = raw (q x0 b) (mt x1) (mn x1) j := by
  simp only [val_main_v30_apply, val_main_v29_apply, val_main_v28_apply, val_main_cst_4_apply, val_main_v27_apply,
    val_main_v26_apply, val_main_v25_apply, val_main_call2_v0_apply, val_main_call2_cst_apply, val_main_v24_apply,
    val_main_v23_apply, val_main_cst_3_apply, softmax_apply]
  rfl

/-- The weights. -/
theorem weight_apply (b : Fin 8192) (j : Fin 600) :
    val_main_v37 (F := Ideal) x0 x1 (ix2 b j) = weight (q x0 b) (mt x1) (mn x1) j := by
  simp only [val_main_v37_apply, val_main_v36_apply, val_main_v35_apply, val_main_v34_apply, val_main_cst_6_apply,
    val_main_v33_apply, val_main_v32_apply, val_main_cst_5_apply, val_main_v31_apply,
    i_v36, i_v33, i_v32, zero_start, raw_apply]
  rfl

/-- The weights array is the specification's, of the re-laid queries, the memory and the column of its norms. -/
theorem weights_eq :
    val_main_v37 (F := Ideal) x0 x1 = weights (val_main_v0 (F := Ideal) x0) x1 (val_main_v2 (F := Ideal) x1) := by
  funext i
  obtain ⟨b, j, rfl⟩ : ∃ (b : Fin 8192) (j : Fin 600), i = ix2 b j := ⟨i 0, i 1, eq_ix2 i⟩
  rw [weight_apply]
  rfl

/-- The read-out array is the specification's. -/
theorem readout_eq :
    val_main_v38 (F := Ideal) x0 x1 = readout (val_main_v0 (F := Ideal) x0) x1 (val_main_v2 (F := Ideal) x1) := by
  funext i
  obtain ⟨b, k, rfl⟩ : ∃ (b : Fin 8192) (k : Fin 4096), i = ix2 b k := ⟨i 0, i 1, eq_ix2 i⟩
  rw [val_main_v38_apply]
  simp only [i_l38, i_r38, weight_apply]
  rfl

end Cert.ReferenceIdeal.Rows

end
-- ==== Proof.Agree.lean ====
/-
  The two programs prepare the same inputs for the addressing.

  Both re-lay the first argument as `[8192, 4096]` by the same re-laying, and both take the column of the memory
  rows' norms by the same five operations; so the queries and the norms the kernel's region finds are, as terms, the
  reference's own.
-/
import proofs.«118871_j4054449127999_1_alg».proof.Proof.Entry
import proofs.«118871_j4054449127999_1_alg».proof.Proof.Gen.ReferenceIdeal.Read

noncomputable section

namespace Cert.Agree

open Idealize.ShloMosaic

/-- The reference's queries are the first argument re-laid. -/
theorem queries (x0 : (⟨Cert.ReferenceIdeal.S8192x256x4x4, .f32⟩ : BufTy).Contents (Elt Ideal)) :
    Cert.ReferenceIdeal.Read.val_main_v0 (F := Ideal) x0
      = shapeCast Cert.KernelIdeal.S8192x4096 x0 Cert.KernelIdeal.Gen.shapeCasts_S8192x256x4x4_S8192x4096 := by
  unfold Cert.ReferenceIdeal.Read.val_main_v0
  rfl

/-- The reference's column of norms is the one the kernel's host side computes. -/
theorem norms (x1 : (⟨Cert.ReferenceIdeal.S600x4096, .f32⟩ : BufTy).Contents (Elt Ideal)) :
    Cert.ReferenceIdeal.Read.val_main_v2 (F := Ideal) x1 = Cert.KernelIdeal.Entry.norms x1 := by
  unfold Cert.ReferenceIdeal.Read.val_main_v2 Cert.ReferenceIdeal.Read.val_main_call1_v2 Cert.ReferenceIdeal.Read.val_main_call1_v1
    Cert.ReferenceIdeal.Read.val_main_call1_v0 Cert.ReferenceIdeal.Read.val_main_call1_cst Cert.KernelIdeal.Entry.norms
  rfl

end Cert.Agree

end
-- ==== Proof.lean ====
/-
  Cosine-similarity memory addressing with hard shrinkage: the tiled kernel against the whole-array reference, over the
  extended reals.

  Both programs take a batch of 8192 queries (the first argument, re-laid as rows of length 4096) and a memory of 600
  slots.  For every query they form its cosine with every slot — the inner product over the floored product of the two
  Euclidean norms —, turn the row of cosines into a softmax shifted by its maximum, shrink every entry `p` to
  `relu (p - t) · p / (|p - t| + ε)`, divide the row by its floored `ℓ¹` norm, and read the memory out with these
  weights.  The kernel does this for 256 queries per grid point, with the memory, its transpose and the column of its
  norms prepared on the host and rounded to a narrower float format on the way into the two products; at the ideal
  values the rounding is the identity, a lane reduction is the row's sum or the fold of `max` over it, and a product into
  a zero accumulator is a plain sum, so each stored entry is the specification's weight, or read-out, of its query
  (`Proof/Body.lean`).  Every row lies in exactly one point's block, so the two output arrays end holding the
  specification's arrays (`Proof/Blocks.lean`), the read-out then re-laid by the one host operation after the region
  (`Proof/Results.lean`).  The reference's stages, read at an index, give the same two arrays (`Proof/Reference.lean`), of
  the same re-laid queries and the same column of norms (`Proof/Agree.lean`).  No law beyond the reading of sums as sums
  is used, so the finiteness of the inputs is never opened.  The idealization rewrote no operation, so the claim that it
  is the kernel's sanctioned idealization has nothing to state.
-/
import proofs.«118871_j4054449127999_1_alg».proof.Defs
import proofs.«118871_j4054449127999_1_alg».proof.Proof.Gen.Kernel
import proofs.«118871_j4054449127999_1_alg».proof.Proof.Gen.Kernel.Skeleton
import proofs.«118871_j4054449127999_1_alg».proof.Proof.Gen.Kernel.Launch
import proofs.«118871_j4054449127999_1_alg».proof.Proof.Gen.Kernel.Points
import proofs.«118871_j4054449127999_1_alg».proof.Proof.Gen.Kernel.Frame
import proofs.«118871_j4054449127999_1_alg».proof.Proof.Gen.KernelIdeal
import proofs.«118871_j4054449127999_1_alg».proof.Proof.Gen.KernelIdeal.Skeleton
import proofs.«118871_j4054449127999_1_alg».proof.Proof.Gen.KernelIdeal.Launch
import proofs.«118871_j4054449127999_1_alg».proof.Proof.Gen.KernelIdeal.Points
import proofs.«118871_j4054449127999_1_alg».proof.Proof.Gen.KernelIdeal.Frame
import proofs.«118871_j4054449127999_1_alg».proof.Proof.Gen.ReferenceIdeal
import proofs.«118871_j4054449127999_1_alg».proof.Proof.Gen.ReferenceIdeal.Run
import proofs.«118871_j4054449127999_1_alg».proof.Proof.Gen.ReferenceIdeal.Read
import proofs.«118871_j4054449127999_1_alg».proof.Proof.Gen.Pre_finite_inputs
import proofs.«118871_j4054449127999_1_alg».proof.Proof.Results
import proofs.«118871_j4054449127999_1_alg».proof.Proof.Reference
import proofs.«118871_j4054449127999_1_alg».proof.Proof.Agree
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame is its run with the results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- Both programs end with the read-out of every query, in the first argument's shape, and the weights of every
    query: the kernel's two arrays are the specification's of the queries, the memory and the norms its region finds,
    the reference's the specification's of its own stages, and the two triples of inputs are the same terms. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, Cert.KernelIdeal.Results.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v39_eq, (hagree c).1, (hagree c).2]
    unfold Cert.ReferenceIdeal.Read.val_main_v39
    rw [Cert.ReferenceIdeal.Rows.readout_eq, Cert.Agree.queries, Cert.Agree.norms]
    show shapeCast _ (Cert.Addressing.readout _ _ _) _
      = shapeCast _ (Cert.Addressing.readout (Cert.KernelIdeal.Gen.V m c Cert.KernelIdeal.main_v0 : Cert.KernelIdeal.S8192x4096.Idx → EReal) _
          (Cert.KernelIdeal.Gen.V m c Cert.KernelIdeal.main_v1 : Cert.KernelIdeal.S600x1.Idx → EReal)) _
    rw [Cert.KernelIdeal.Entry.queries m c, Cert.KernelIdeal.Entry.slotNorms m c]
  · rw [Cert.ReferenceIdeal.Read.val_main_v37_eq, (hagree c).1, (hagree c).2]
    rw [Cert.ReferenceIdeal.Rows.weights_eq, Cert.Agree.queries, Cert.Agree.norms]
    show Cert.Addressing.weights _ _ _
      = Cert.Addressing.weights (Cert.KernelIdeal.Gen.V m c Cert.KernelIdeal.main_v0 : Cert.KernelIdeal.S8192x4096.Idx → EReal) _
          (Cert.KernelIdeal.Gen.V m c Cert.KernelIdeal.main_v1 : Cert.KernelIdeal.S600x1.Idx → EReal)
    rw [Cert.KernelIdeal.Entry.queries m c, Cert.KernelIdeal.Entry.slotNorms m c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
